-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x64x64 : Shape := ⟨4, ![32, 512, 64, 64]⟩
abbrev S32x512 : Shape := ⟨2, ![32, 512]⟩
abbrev S512x32 : Shape := ⟨2, ![512, 32]⟩
abbrev S_ : Shape := ⟨0, ![]⟩

class Facts : Prop where
  bcast_S_S32x512x64x64 : S_.BroadcastsInDim S32x512x64x64 (![] : Fin 0 → Fin S32x512x64x64.rank)
  reducesTo_S32x512x64x64_S_d0_1_2_3 : S32x512x64x64.ReducesTo [0, 1, 2, 3] S_
  h_S_ : 0 < S_.numel
  bcast_S_S32x512 : S_.BroadcastsInDim S32x512 (![] : Fin 0 → Fin S32x512.rank)
  reducesTo_S32x512_S_d0_1 : S32x512.ReducesTo [0, 1] S_
  bcast_S_S512x32 : S_.BroadcastsInDim S512x32 (![] : Fin 0 → Fin S512x32.rank)
  reducesTo_S512x32_S_d0_1 : S512x32.ReducesTo [0, 1] S_

variable [Facts]

def fn {F : FTy → Type} [FloatOps F] (main_arg0 : FVec F S32x512x64x64 .f32) (main_arg1 : FVec F S32x512 .f32) (main_arg2 : FVec F S512x32 .f32) : IVec S_ 1 :=
  let main_v0 : FVec F S32x512x64x64 .f32 := Host.absf main_arg0
  let main_cst : FVec F S_ .f32 := constant S_ .f32 0x7F800000#32
  let main_v1 : FVec F S32x512x64x64 .f32 := broadcastInDim S32x512x64x64 ![] bcast_S_S32x512x64x64 main_cst
  let main_v2 : IVec S32x512x64x64 1 := cmpf .olt main_v0 main_v1
  let main_c : IVec S_ 1 := constantI S_ 1 1#1
  let main_v3 : IVec S_ 1 := (fun x v => Host.reduce IntOp.andi x v reducesTo_S32x512x64x64_S_d0_1_2_3 h_S_) main_v2 main_c
  let main_v4 : FVec F S32x512 .f32 := Host.absf main_arg1
  let main_cst_0 : FVec F S_ .f32 := constant S_ .f32 0x7F800000#32
  let main_v5 : FVec F S32x512 .f32 := broadcastInDim S32x512 ![] bcast_S_S32x512 main_cst_0
  let main_v6 : IVec S32x512 1 := cmpf .olt main_v4 main_v5
  let main_c_1 : IVec S_ 1 := constantI S_ 1 1#1
  let main_v7 : IVec S_ 1 := (fun x v => Host.reduce IntOp.andi x v reducesTo_S32x512_S_d0_1 h_S_) main_v6 main_c_1
  let main_v8 : IVec S_ 1 := andi main_v3 main_v7
  let main_v9 : FVec F S512x32 .f32 := Host.absf main_arg2
  let main_cst_2 : FVec F S_ .f32 := constant S_ .f32 0x7F800000#32
  let main_v10 : FVec F S512x32 .f32 := broadcastInDim S512x32 ![] bcast_S_S512x32 main_cst_2
  let main_v11 : IVec S512x32 1 := cmpf .olt main_v9 main_v10
  let main_c_3 : IVec S_ 1 := constantI S_ 1 1#1
  let main_v12 : IVec S_ 1 := (fun x v => Host.reduce IntOp.andi x v reducesTo_S512x32_S_d0_1 h_S_) main_v11 main_c_3
  let main_v13 : IVec S_ 1 := andi main_v8 main_v12
  main_v13
-- ==== Kernel.lean ====
abbrev S32x512x64x64 : Shape := ⟨4, ![32, 512, 64, 64]⟩
abbrev S32x512 : Shape := ⟨2, ![32, 512]⟩
abbrev S512x32 : Shape := ⟨2, ![512, 32]⟩
abbrev S32x512x4096 : Shape := ⟨3, ![32, 512, 4096]⟩
abbrev S1x512x4096 : Shape := ⟨3, ![1, 512, 4096]⟩
abbrev S512x1 : Shape := ⟨2, ![512, 1]⟩
abbrev S1x512x512 : Shape := ⟨3, ![1, 512, 512]⟩
abbrev S512x512 : Shape := ⟨2, ![512, 512]⟩
abbrev S512 : Shape := ⟨1, ![512]⟩
abbrev S32x1 : Shape := ⟨2, ![32, 1]⟩

abbrev nBuf : Space → Nat
  | .hbm => 6
  | .vmem => 6
  | .smem => 0
  | _ => 0

abbrev bufTy : (tb : Table) → Fin (tcTables nBuf tb) → BufTy
  | .hbm, ⟨0, _⟩ => ⟨S32x512x64x64, .f32⟩
  | .hbm, ⟨1, _⟩ => ⟨S32x512, .f32⟩
  | .hbm, ⟨2, _⟩ => ⟨S512x32, .f32⟩
  | .hbm, ⟨3, _⟩ => ⟨S32x512x4096, .f32⟩
  | .hbm, ⟨4, _⟩ => ⟨S32x512x4096, .f32⟩
  | .hbm, ⟨5, _⟩ => ⟨S32x512x64x64, .f32⟩
  | .local _ .vmem, ⟨0, _⟩ => ⟨S1x512x4096, .f32⟩
  | .local _ .vmem, ⟨1, _⟩ => ⟨S1x512x4096, .f32⟩
  | .local _ .vmem, ⟨2, _⟩ => ⟨S32x512, .f32⟩
  | .local _ .vmem, ⟨3, _⟩ => ⟨S512x32, .f32⟩
  | .local _ .vmem, ⟨4, _⟩ => ⟨S1x512x4096, .f32⟩
  | .local _ .vmem, ⟨5, _⟩ => ⟨S1x512x4096, .f32⟩
  | _, _ => ⟨S32x512x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c8_i32 : BitVec 32 := 8#32
  let v1 : BitVec 32 := Scalar.addi c0_i32 c8_i32
  let c1_i32 : BitVec 32 := 1#32
  ⟨c0_i32, v1, c1_i32⟩
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c512_i32 : BitVec 32 := 512#32
  let v17 : BitVec 32 := Scalar.muli arg5 c512_i32
  v17
def k0_off1 (k0_t1 : Fin k0_t1_loop.trips) : Fin 3 → Nat :=
  let c0_12 : Index := 0#32
  let c0_13 : Index := 0#32
  let c0_i32 : BitVec 32 := 0#32
  let c1_i32 : BitVec 32 := 1#32
  let arg5 : BitVec 32 := Scf.iv c0_i32 c1_i32 k0_t1
  let c512_i32 : BitVec 32 := 512#32
  let v17 : BitVec 32 := Scalar.muli arg5 c512_i32
  let v18 : BitVec 32 := v17
  let v19 : Index := Scalar.indexCast v18
  ![0, 0, v19.toNat]
@[reducible] def k0_t2_loop : Scf.Loop 32 :=
  let c0_i32_8 : BitVec 32 := 0#32
  let c8_i32_9 : BitVec 32 := 8#32
  let v16 : BitVec 32 := Scalar.addi c0_i32_8 c8_i32_9
  let c1_i32_10 : BitVec 32 := 1#32
  ⟨c0_i32_8, v16, c1_i32_10⟩
def k0_mult2 (k0_t2 : Fin k0_t2_loop.trips) : BitVec 32 :=
  let c0_i32_8 : BitVec 32 := 0#32
  let c1_i32_10 : BitVec 32 := 1#32
  let arg5 : BitVec 32 := Scf.iv c0_i32_8 c1_i32_10 k0_t2
  let c512_i32 : BitVec 32 := 512#32
  let v17 : BitVec 32 := Scalar.muli arg5 c512_i32
  v17
def k0_off2 (k0_t2 : Fin k0_t2_loop.trips) : Fin 3 → Nat :=
  let c0_12 : Index := 0#32
  let c0_13 : Index := 0#32
  let c0_i32_8 : BitVec 32 := 0#32
  let c1_i32_10 : BitVec 32 := 1#32
  let arg5 : BitVec 32 := Scf.iv c0_i32_8 c1_i32_10 k0_t2
  let c512_i32 : BitVec 32 := 512#32
  let v17 : BitVec 32 := Scalar.muli arg5 c512_i32
  let v18 : BitVec 32 := v17
  let v19 : Index := Scalar.indexCast v18
  ![0, 0, v19.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x512x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S32x512x64x64_S32x512x4096 : S32x512x64x64.ShapeCasts S32x512x4096
  h_S1x512x512 : 0 < S1x512x512.numel
  shapeCasts_S1x512x512_S512x512 : S1x512x512.ShapeCasts S512x512
  reduces_S512x512_S512 : S512x512.Reduces [1] S512
  shapeCasts_S512_S512x1 : S512.ShapeCasts S512x1
  inb_S32x512_S32x512_0_0 : ∀ a, (![0, 0] : Fin 2 → Nat) a + S32x512.size a ≤ S32x512.size a
  h_S32x512 : 0 < S32x512.numel
  bitsLt_bf16_f32 : FTy.bits .bf16 < FTy.bits .f32
  inb_S512x32_S512x32_0_0 : ∀ a, (![0, 0] : Fin 2 → Nat) a + S512x32.size a ≤ S512x32.size a
  h_S512x32 : 0 < S512x32.numel
  broadcasts_S512x1_S512x512 : S512x1.Broadcasts S512x512
  shapeCasts_S512x512_S1x512x512 : S512x512.ShapeCasts S1x512x512
  shapeCasts_S32x512x4096_S32x512x64x64 : S32x512x4096.ShapeCasts S32x512x64x64
  dot_S32x512_S512x1_S32x1_1_0_0_1_n_n_wf : DotDims.WF S32x512 S512x1 S32x1 [1] [0] [0] [1] [] []
  dot_S512x32_S32x1_S512x1_1_0_0_1_n_n_wf : DotDims.WF S512x32 S32x1 S512x1 [1] [0] [0] [1] [] []
  hrank0 : 0 < grid0.rank
  k0_t1_ok : k0_t1_loop.OK
  k0_mult1_dvd : ∀ k0_t1 : Fin k0_t1_loop.trips, 512 ∣ (k0_mult1 k0_t1).toNat
  k0_off1_inb : ∀ k0_t1 : Fin k0_t1_loop.trips, ∀ a, (k0_off1 k0_t1) a + S1x512x512.size a ≤ S1x512x4096.size a
  k0_t2_ok : k0_t2_loop.OK
  k0_mult2_dvd : ∀ k0_t2 : Fin k0_t2_loop.trips, 512 ∣ (k0_mult2 k0_t2).toNat
  k0_off2_inb : ∀ k0_t2 : Fin k0_t2_loop.trips, ∀ a, (k0_off2 k0_t2) a + S1x512x512.size a ≤ S1x512x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x4096.size a ≤ S32x512x4096.size a
  hwx0_0 : ∀ i : grid0.Coords, EltTy.bits .f32 = 32 ∨ (Rect.block (s := S32x512x4096) S1x512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x512.size a ≤ S32x512.size a
  hwx0_1 : ∀ i : grid0.Coords, EltTy.bits .f32 = 32 ∨ (Rect.block (s := S32x512) S32x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x32.size a ≤ S512x32.size a
  hwx0_2 : ∀ i : grid0.Coords, EltTy.bits .f32 = 32 ∨ (Rect.block (s := S512x32) S512x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x4096.size a ≤ S32x512x4096.size a
  hwx0_3 : ∀ i : grid0.Coords, EltTy.bits .f32 = 32 ∨ (Rect.block (s := S32x512x4096) S1x512x4096.size (cc0_transform_3 i) (hinb0_3 i)).WholeWords (EltTy.packing .f32)

variable [Facts₀]

def dot_S32x512_S512x1_S32x1_1_0_0_1_n_n : DotDims S32x512 S512x1 S32x1 where
  lhsContracting := [1]
  rhsContracting := [0]
  lhsNonContracting := [0]
  rhsNonContracting := [1]
  lhsBatch := []
  rhsBatch := []
  wf := dot_S32x512_S512x1_S32x1_1_0_0_1_n_n_wf
def dot_S512x32_S32x1_S512x1_1_0_0_1_n_n : DotDims S512x32 S32x1 S512x1 where
  lhsContracting := [1]
  rhsContracting := [0]
  lhsNonContracting := [0]
  rhsNonContracting := [1]
  lhsBatch := []
  rhsBatch := []
  wf := dot_S512x32_S32x1_S512x1_1_0_0_1_n_n_wf

abbrev win0_0 : Pipeline.Window sig grid0 :=
  Pipeline.Window.ofSpec (Memref.whole main_v0) S1x512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x512x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x512x64x64 : Shape := ⟨4, ![32, 512, 64, 64]⟩
abbrev S32x512 : Shape := ⟨2, ![32, 512]⟩
abbrev S512x32 : Shape := ⟨2, ![512, 32]⟩
abbrev S_ : Shape := ⟨0, ![]⟩
abbrev S32x32 : Shape := ⟨2, ![32, 32]⟩
abbrev S32x512x1x1 : Shape := ⟨4, ![32, 512, 1, 1]⟩

abbrev nBuf : Space → Nat
  | .hbm => 26
  | .vmem => 0
  | .smem => 0
  | _ => 0

abbrev bufTy : (tb : Table) → Fin (tcTables nBuf tb) → BufTy
  | .hbm, ⟨0, _⟩ => ⟨S32x512x64x64, .f32⟩
  | .hbm, ⟨1, _⟩ => ⟨S32x512, .f32⟩
  | .hbm, ⟨2, _⟩ => ⟨S512x32, .f32⟩
  | .hbm, ⟨3, _⟩ => ⟨S_, .f32⟩
  | .hbm, ⟨4, _⟩ => ⟨S32x512, .f32⟩
  | .hbm, ⟨5, _⟩ => ⟨S_, .f32⟩
  | .hbm, ⟨6, _⟩ => ⟨S32x512, .f32⟩
  | .hbm, ⟨7, _⟩ => ⟨S32x512, .f32⟩
  | .hbm, ⟨8, _⟩ => ⟨S512x32, .f32⟩
  | .hbm, ⟨9, _⟩ => ⟨S32x32, .f32⟩
  | .hbm, ⟨10, _⟩ => ⟨S_, .f32⟩
  | .hbm, ⟨11, _⟩ => ⟨S32x32, .f32⟩
  | .hbm, ⟨12, _⟩ => ⟨S32x32, .f32⟩
  | .hbm, ⟨13, _⟩ => ⟨S32x512, .f32⟩
  | .hbm, ⟨14, _⟩ => ⟨S32x512, .f32⟩
  | .hbm, ⟨15, _⟩ => ⟨S32x512, .f32⟩
  | .hbm, ⟨16, _⟩ => ⟨S32x512, .f32⟩
  | .hbm, ⟨17, _⟩ => ⟨S_, .f32⟩
  | .hbm, ⟨18, _⟩ => ⟨S32x512, .f32⟩
  | .hbm, ⟨19, _⟩ => ⟨S32x512, .f32⟩
  | .hbm, ⟨20, _⟩ => ⟨S_, .f32⟩
  | .hbm, ⟨21, _⟩ => ⟨S32x512, .f32⟩
  | .hbm, ⟨22, _⟩ => ⟨S32x512, .f32⟩
  | .hbm, ⟨23, _⟩ => ⟨S32x512x1x1, .f32⟩
  | .hbm, ⟨24, _⟩ => ⟨S32x512x64x64, .f32⟩
  | .hbm, ⟨25, _⟩ => ⟨S32x512x64x64, .f32⟩
  | _, _ => ⟨S32x512x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_cst : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]

class Facts₀ : Prop where
  reducesTo_S32x512x64x64_S32x512_d2_3 : S32x512x64x64.ReducesTo [2, 3] S32x512
  h_S_ : 0 < S_.numel
  bcast_S_S32x512 : S_.BroadcastsInDim S32x512 (![] : Fin 0 → Fin S32x512.rank)
  transposes_S32x512_S512x32_1_0 : S32x512.Transposes [1, 0] S512x32
  bcast_S_S32x32 : S_.BroadcastsInDim S32x32 (![] : Fin 0 → Fin S32x32.rank)
  transposes_S512x32_S32x512_1_0 : S512x32.Transposes [1, 0] S32x512
  bcast_S32x512_S32x512x1x1_0_1 : S32x512.BroadcastsInDim S32x512x1x1 (![0, 1] : Fin 2 → Fin S32x512x1x1.rank)
  bcast_S32x512x1x1_S32x512x64x64_0_1_2_3 : S32x512x1x1.BroadcastsInDim S32x512x64x64 (![0, 1, 2, 3] : Fin 4 → Fin S32x512x64x64.rank)
  dot_S32x512_S512x32_S32x32_1_0_0_1_n_n_wf : DotDims.WF S32x512 S512x32 S32x32 [1] [0] [0] [1] [] []
  dot_S32x32_S32x512_S32x512_1_0_0_1_n_n_wf : DotDims.WF S32x32 S32x512 S32x512 [1] [0] [0] [1] [] []

variable [Facts₀]

def dot_S32x512_S512x32_S32x32_1_0_0_1_n_n : DotDims S32x512 S512x32 S32x32 where
  lhsContracting := [1]
  rhsContracting := [0]
  lhsNonContracting := [0]
  rhsNonContracting := [1]
  lhsBatch := []
  rhsBatch := []
  wf := dot_S32x512_S512x32_S32x32_1_0_0_1_n_n_wf
def dot_S32x32_S32x512_S32x512_1_0_0_1_n_n : DotDims S32x32 S32x512 S32x512 where
  lhsContracting := [1]
  rhsContracting := [0]
  lhsNonContracting := [0]
  rhsNonContracting := [1]
  lhsBatch := []
  rhsBatch := []
  wf := dot_S32x32_S32x512_S32x512_1_0_0_1_n_n_wf

class Facts : Prop extends Facts₀ where

variable [Facts]
-- ==== Proof.LibColumn.lean ====
/-
  Layout operations on a COLUMN, read at an index: a vector `[a]` viewed as a one-column matrix `[a, 1]`, a
  one-column matrix broadcast along its rows to `[a, b]`, and a `[1, 1, a]` array viewed as one row `[1, a]`.
  (The row forms — `[1, b] → [a, b]`, a leading unit axis added or dropped — are in the library; these are their
  column counterparts, which every row reduction that keeps its axis meets.) Also: the comparison of two row
  indices below `2^32`, as 32-bit words, is the comparison of the indices.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1, a]` array cast to `[1, a]` reads, at `(u, i)`, the operand at `(0, 0, i)`. -/
theorem shapeCast_11a_1a_apply {a : ℕ} (x : (⟨3, ![1, 1, a]⟩ : Shape).Idx → α) (h : (⟨3, ![1, 1, a]⟩ : Shape).ShapeCasts ⟨2, ![1, a]⟩)
    (u : Fin 1) (i : Fin a) : shapeCast ⟨2, ![1, a]⟩ x h (ix2 u i) = x (ix3 (0 : Fin 1) (0 : Fin 1) i) :=
  shapeCast_apply x h _ _ (by
    have hu : u.val = 0 := by omega
    rw [Shape.rowMajor_val_three, Shape.rowMajor_val_two]
    show (0 * 1 + 0) * a + i.val = u.val * a + i.val
    rw [hu])

/-- Two indices below `2^32` are equal exactly when their 32-bit words are: the word of the comparison is `1` on
    the diagonal and `0` off it. -/
theorem cmpi_eq_ofNat {n : ℕ} (hn : n ≤ 2 ^ 32) (l k : Fin n) :
    IntOp.cmpi .eq (BitVec.ofNat 32 l.val) (BitVec.ofNat 32 k.val) = if l = k then 1#1 else 0#1 := by
  have hl : l.val < 2 ^ 32 := lt_of_lt_of_le l.isLt hn
  have hk : k.val < 2 ^ 32 := lt_of_lt_of_le k.isLt hn
  have hiff : BitVec.ofNat 32 l.val = BitVec.ofNat 32 k.val ↔ l = k := by
    constructor
    · intro h
      have h' := congrArg BitVec.toNat h
      rw [BitVec.toNat_ofNat, BitVec.toNat_ofNat, Nat.mod_eq_of_lt hl, Nat.mod_eq_of_lt hk] at h'
      exact Fin.ext h'
    · rintro rfl; rfl
  unfold IntOp.cmpi
  by_cases h : l = k
  · subst h; simp
  · have hne : ¬ BitVec.ofNat 32 l.val = BitVec.ofNat 32 k.val := fun e => h (hiff.mp e)
    have hb : (BitVec.ofNat 32 l.val == BitVec.ofNat 32 k.val) = false := beq_eq_false_iff_ne.mpr hne
    rw [if_neg h]
    show BitVec.ofBool (BitVec.ofNat 32 l.val == BitVec.ofNat 32 k.val) = 0#1
    rw [hb]
    rfl

end Cert.LibColumn
-- ==== Proof.KernelPay.lean ====
/-
  The arithmetic of the kernel body, read at an index on the extended reals.

  One trip of the first loop adds to the running column of channel totals the lane sums of one chunk of 512
  positions: entry `p` of the column grows by `Σ_l chunk[0, p, l]`.
  The stored chunk of the second loop is the loaded chunk with row `p` scaled by the gate of channel `p`, the gate
  being the logistic function of `Σ_j w2[p, j] · max(Σ_c w1[j, c] · (total[c] · 2^-12), 0)`: the two matrix products
  into a zero accumulator are plain sums over the contracted index, and the roundings to bf16 on the way into them are
  the identity.
-/
import proofs.«116508_j62173946577551_2_alg».proof.Proof.Gen.KernelIdeal.Skeleton
import proofs.«116508_j62173946577551_2_alg».proof.Proof.LibColumn
import Idealize.ShloMosaic.Lib.ValueLayout
import Idealize.ShloMosaic.Lib.ValueIdx
import Idealize.ShloMosaic.Lib.Pipeline.Value
import Idealize.ShloMosaic.PureOps.Ideal.Laws

noncomputable section

namespace Cert.KernelIdeal.Pay

open Idealize.ShloMosaic Idealize.ShloMosaic.ValueIdx Cert.KernelIdeal Cert.KernelIdeal.Gen Cert.LibColumn

/-- The first product's dimensions: `[32, 512] · [512, 1]`. -/
abbrev D1 : DotDims S32x512 S512x1 S32x1 := dot_S32x512_S512x1_S32x1_1_0_0_1_n_n
/-- The second product's dimensions: `[512, 32] · [32, 1]`. -/
abbrev D2 : DotDims S512x32 S32x1 S512x1 := dot_S512x32_S32x1_S512x1_1_0_0_1_n_n

/-! ## The first loop's trip: a lane sum added to the running column -/

theorem pay2_apply (acc : FVec Ideal S512x1 .f32) (v20 : Vec Ideal S1x512x512 .f32) (p : Fin 512) (u : Fin 1) :
    k0_pay2 (F := Ideal) acc v20 (ix2 p u) = acc (ix2 p u) + ∑ l : Fin 512, v20 (ix3 (0 : Fin 1) p l) := by
  unfold k0_pay2
  dsimp only
  refine congrArg (acc (ix2 p u) + ·) ?_
  refine (shapeCast_a_a1_apply _ shapeCasts_S512_S512x1 p u).trans ?_
  refine (Ideal.multiReduction_add_single _ 0x00000000#32 reduces_S512x512_S512 (.inl rfl) rfl (ix1 p)).trans ?_
  refine Finset.sum_congr rfl fun l _ => ?_
  have e : reduces_S512x512_S512.lift (ix1 p) l = ix2 p l :=
    funext fun a => Fin.ext (by match a with | ⟨0, _⟩ => rfl | ⟨1, _⟩ => rfl)
  rw [e]
  exact shapeCast_1ab_ab_apply v20 shapeCasts_S1x512x512_S512x512 p l

/-! ## The two matrix products as sums -/

theorem lhs1_0 (i : S32x1.Idx) (q : D1.contr.Idx) : (D1.lhsIdx i q 0).val = (i 0).val := by
  unfold DotDims.lhsIdx
  rw [dif_neg (show ¬(0 : Fin S32x512.rank) ∈ D1.lhsBatch by decide), dif_pos (show (0 : Fin S32x512.rank) ∈ D1.lhsNonContracting by decide)]
  rfl
theorem lhs1_1 (i : S32x1.Idx) (q : D1.contr.Idx) : (D1.lhsIdx i q 1).val = (q ⟨0, by decide⟩).val :=
  D1.lhsIdx_val_of_single rfl i q
theorem rhs1_0 (i : S32x1.Idx) (q : D1.contr.Idx) : (D1.rhsIdx i q 0).val = (q ⟨0, by decide⟩).val :=
  D1.rhsIdx_val_of_single rfl i q
theorem rhs1_1 (i : S32x1.Idx) (q : D1.contr.Idx) : (D1.rhsIdx i q 1).val = (i 1).val := by
  unfold DotDims.rhsIdx
  rw [dif_neg (show ¬(1 : Fin S512x1.rank) ∈ D1.rhsBatch by decide), dif_pos (show (1 : Fin S512x1.rank) ∈ D1.rhsNonContracting by decide)]
  rfl

/-- Entry `(j, 0)` of `[32, 512] · [512, 1]` into a zero accumulator is the sum over the 512 contracted positions. -/
theorem matmul1_apply (L : FVec Ideal S32x512 .bf16) (R : FVec Ideal S512x1 .bf16) (j : Fin 32) (u : Fin 1) :
    matmul D1 none L R (constant S32x1 .f32 0x00000000#32) (ix2 j u) = ∑ c : Fin 512, L (ix2 j c) * R (ix2 c (0 : Fin 1)) := by
  simp only [matmul]
  rw [Ideal.matmul_constant_zero_apply, ← Equiv.sum_comp (contrEquiv1 D1 512 rfl rfl).symm]
  refine Finset.sum_congr rfl fun k _ => ?_
  have hk := contrEquiv1_symm_val D1 512 rfl rfl k
  have hu : u.val = 0 := by omega
  have el : D1.lhsIdx (ix2 j u) ((contrEquiv1 D1 512 rfl rfl).symm k) = ix2 j k := funext fun a => Fin.ext (by
    match a with
    | ⟨0, _⟩ => exact lhs1_0 _ _
    | ⟨1, _⟩ => exact (lhs1_1 _ _).trans hk)
  have er : D1.rhsIdx (ix2 j u) ((contrEquiv1 D1 512 rfl rfl).symm k) = ix2 k (0 : Fin 1) := funext fun a => Fin.ext (by
    match a with
    | ⟨0, _⟩ => exact (rhs1_0 _ _).trans hk
    | ⟨1, _⟩ => exact (rhs1_1 _ _).trans hu)
  rw [el, er]

theorem lhs2_0 (i : S512x1.Idx) (q : D2.contr.Idx) : (D2.lhsIdx i q 0).val = (i 0).val := by
  unfold DotDims.lhsIdx
  rw [dif_neg (show ¬(0 : Fin S512x32.rank) ∈ D2.lhsBatch by decide), dif_pos (show (0 : Fin S512x32.rank) ∈ D2.lhsNonContracting by decide)]
  rfl
theorem lhs2_1 (i : S512x1.Idx) (q : D2.contr.Idx) : (D2.lhsIdx i q 1).val = (q ⟨0, by decide⟩).val :=
  D2.lhsIdx_val_of_single rfl i q
theorem rhs2_0 (i : S512x1.Idx) (q : D2.contr.Idx) : (D2.rhsIdx i q 0).val = (q ⟨0, by decide⟩).val :=
  D2.rhsIdx_val_of_single rfl i q
theorem rhs2_1 (i : S512x1.Idx) (q : D2.contr.Idx) : (D2.rhsIdx i q 1).val = (i 1).val := by
  unfold DotDims.rhsIdx
  rw [dif_neg (show ¬(1 : Fin S32x1.rank) ∈ D2.rhsBatch by decide), dif_pos (show (1 : Fin S32x1.rank) ∈ D2.rhsNonContracting by decide)]
  rfl

/-- Entry `(p, 0)` of `[512, 32] · [32, 1]` into a zero accumulator is the sum over the 32 contracted positions. -/
theorem matmul2_apply (L : FVec Ideal S512x32 .bf16) (R : FVec Ideal S32x1 .bf16) (p : Fin 512) (u : Fin 1) :
    matmul D2 none L R (constant S512x1 .f32 0x00000000#32) (ix2 p u) = ∑ j : Fin 32, L (ix2 p j) * R (ix2 j (0 : Fin 1)) := by
  simp only [matmul]
  rw [Ideal.matmul_constant_zero_apply, ← Equiv.sum_comp (contrEquiv1 D2 32 rfl rfl).symm]
  refine Finset.sum_congr rfl fun k _ => ?_
  have hk := contrEquiv1_symm_val D2 32 rfl rfl k
  have hu : u.val = 0 := by omega
  have el : D2.lhsIdx (ix2 p u) ((contrEquiv1 D2 32 rfl rfl).symm k) = ix2 p k := funext fun a => Fin.ext (by
    match a with
    | ⟨0, _⟩ => exact lhs2_0 _ _
    | ⟨1, _⟩ => exact (lhs2_1 _ _).trans hk)
  have er : D2.rhsIdx (ix2 p u) ((contrEquiv1 D2 32 rfl rfl).symm k) = ix2 k (0 : Fin 1) := funext fun a => Fin.ext (by
    match a with
    | ⟨0, _⟩ => exact (rhs2_0 _ _).trans hk
    | ⟨1, _⟩ => exact (rhs2_1 _ _).trans hu)
  rw [el, er]

/-! ## The second loop's stored chunk -/

/-- The gate of channel `p` as the body computes it, from the column of channel totals `tot` and the two weight blocks. -/
def kgate (tot : FVec Ideal S512x1 .f32) (w1 : Vec Ideal S32x512 .f32) (w2 : Vec Ideal S512x32 .f32) (p : Fin 512) : EReal :=
  Ideal.logistic (∑ j : Fin 32, w2 (ix2 p j)
    * max (∑ c : Fin 512, w1 (ix2 j c) * (tot (ix2 c (0 : Fin 1)) * Ideal.ofBits .f32 0x39800000#32)) (Ideal.ofBits .f32 0x00000000#32))

theorem pay3_apply (tot : FVec Ideal S512x1 .f32) (w1 : Vec Ideal S32x512 .f32) (w2 : Vec Ideal S512x32 .f32)
    (v20 : Vec Ideal S1x512x512 .f32) (u : Fin 1) (p q : Fin 512) :
    k0_pay3 (F := Ideal) tot w1 w2 v20 (ix3 u p q) = v20 (ix3 (0 : Fin 1) p q) * kgate tot w1 w2 p := by
  unfold k0_pay3
  refine (shapeCast_ab_1ab_apply _ shapeCasts_S512x512_S1x512x512 u p q).trans ?_
  refine congrArg₂ (· * ·) (shapeCast_1ab_ab_apply v20 shapeCasts_S1x512x512_S512x512 p q) ?_
  refine (broadcastTo_a1_ab_apply _ broadcasts_S512x1_S512x512 p q).trans ?_
  unfold kgate
  refine congrArg Ideal.logistic ?_
  refine (matmul2_apply _ _ p (0 : Fin 1)).trans ?_
  refine Finset.sum_congr rfl fun j _ => ?_
  refine congrArg (fun z => w2 (ix2 p j) * max z (Ideal.ofBits .f32 0x00000000#32)) ?_
  exact matmul1_apply _ _ j (0 : Fin 1)

end Cert.KernelIdeal.Pay

end
-- ==== Proof.Spec.lean ====
/-
  The squeeze-and-excite gate as ONE function of the argument arrays, index by index, on the extended reals:
  each channel of each image is scaled by a gate in (0, 1) computed from the image's channel means,

    out[b, c, h, w] = x[b, c, h, w] · σ( Σ_j  max( Σ_c' mean[b, c'] · w1[j, c'], 0 ) · w2[c, j] ),
    mean[b, c]      = ( Σ_h Σ_w x[b, c, h, w] ) · (1 / 4096),

  together with the two laws of finite sums that make a sum over 4096 consecutive positions independent of how the
  positions are grouped (8 chunks of 512, or 64 rows of 64), and the fact that a running total started at zero is the
  sum of what was added. Sums and products of extended reals are commutative and associative at the infinities too, so
  none of this needs the entries to be finite.
-/
import Idealize.ShloMosaic.PureOps.Ideal
import Idealize.ShloMosaic.Lib.ValueIdx

noncomputable section

namespace Cert.SEGate

open Idealize.ShloMosaic Idealize.ShloMosaic.ValueIdx

/-! ## Regrouping a sum over consecutive positions -/

/-- A sum over `a · b` consecutive positions, taken as `a` groups of `b`. -/
theorem sum_groups {M : Type*} [AddCommMonoid M] (a b : ℕ) (g : ℕ → M) :
    ∑ i : Fin a, ∑ j : Fin b, g (b * i.val + j.val) = ∑ n : Fin (a * b), g n.val := by
  rw [← Equiv.sum_comp finProdFinEquiv (fun n : Fin (a * b) => g n.val), Fintype.sum_prod_type]
  refine Finset.sum_congr rfl fun i _ => Finset.sum_congr rfl fun j _ => ?_
  show g (b * i.val + j.val) = g (j.val + b * i.val)
  rw [Nat.add_comm]

/-- Eight chunks of 512 positions and sixty-four rows of 64 positions are the same 4096 positions. -/
theorem chunks_eq_rows {M : Type*} [AddCommMonoid M] (g : ℕ → M) :
    ∑ k : Fin 8, ∑ l : Fin 512, g (512 * k.val + l.val) = ∑ h : Fin 64, ∑ w : Fin 64, g (64 * h.val + w.val) :=
  (sum_groups 8 512 g).trans (sum_groups 64 64 g).symm

/-- A running total that starts at zero and adds `s k` at step `k` is, after `n` steps, the sum of the first `n`. -/
theorem running_total {M : Type*} [AddCommMonoid M] (s acc : ℕ → M) (N : ℕ) (h0 : acc 0 = 0)
    (hs : ∀ k, k < N → acc (k + 1) = acc k + s k) : acc N = ∑ k : Fin N, s k.val := by
  have h : ∀ n, n ≤ N → acc n = ∑ k ∈ Finset.range n, s k := by
    intro n
    induction n with
    | zero => intro _; rw [h0, Finset.range_zero, Finset.sum_empty]
    | succ n ih => intro hn; rw [hs n (by omega), ih (by omega), Finset.sum_range_succ]
  rw [h N le_rfl, Finset.sum_range]

/-! ## The gate -/

abbrev SX : Shape := ⟨4, ![32, 512, 64, 64]⟩
abbrev SW1 : Shape := ⟨2, ![32, 512]⟩
abbrev SW2 : Shape := ⟨2, ![512, 32]⟩

/-- The reciprocal of the number of positions of one channel, `1 / (64 · 64)`. -/
def invHW : EReal := ((1 / 4096 : ℝ) : EReal)

/-- The total of channel `c` of image `b`. -/
def pool (x : SX.Idx → EReal) (b : Fin 32) (c : Fin 512) : EReal :=
  ∑ h : Fin 64, ∑ w : Fin 64, x (ix4 b c h w)

/-- Its mean. -/
def mean (x : SX.Idx → EReal) (b : Fin 32) (c : Fin 512) : EReal := pool x b c * invHW

/-- The hidden layer: the means projected to 32 features, negative features cut to zero. -/
def hidden (x : SX.Idx → EReal) (w1 : SW1.Idx → EReal) (b : Fin 32) (j : Fin 32) : EReal :=
  max (∑ c : Fin 512, mean x b c * w1 (ix2 j c)) 0

/-- The gate of channel `c` of image `b`: the logistic function of the hidden layer projected back. -/
def gate (x : SX.Idx → EReal) (w1 : SW1.Idx → EReal) (w2 : SW2.Idx → EReal) (b : Fin 32) (c : Fin 512) : EReal :=
  Ideal.logistic (∑ j : Fin 32, hidden x w1 b j * w2 (ix2 c j))

/-- The result: every entry times its channel's gate. -/
def scaled (x : SX.Idx → EReal) (w1 : SW1.Idx → EReal) (w2 : SW2.Idx → EReal) : SX.Idx → EReal :=
  fun i => x i * gate x w1 w2 (i 0) (i 1)

/-! ## The three literals the two programs spell -/

/-- `4096.0` denotes the real 4096. -/
theorem ofBits_4096 : Ideal.ofBits .f32 0x45800000#32 = ((4096 : ℝ) : EReal) := by
  simp [Ideal.ofBits, Ideal.ieee, -EReal.coe_mul]; norm_num

/-- `2.44140625e-4` is exactly `2^-12 = 1 / 4096`. -/
theorem ofBits_invHW : Ideal.ofBits .f32 0x39800000#32 = invHW := by
  unfold invHW
  simp [Ideal.ofBits, Ideal.ieee, -EReal.coe_mul]; norm_num

/-- `1.0` denotes 1. -/
theorem ofBits_one : Ideal.ofBits .f32 0x3F800000#32 = 1 := by
  simp [Ideal.ofBits, Ideal.ieee, -EReal.coe_mul]; norm_num

/-- Dividing by 4096 is multiplying by its reciprocal, on every extended real. -/
theorem div_4096 (t : EReal) : Ideal.div t (Ideal.ofBits .f32 0x45800000#32) = t * invHW := by
  rw [ofBits_4096, Ideal.div_coe (by norm_num : (4096 : ℝ) ≠ 0)]; rfl

end Cert.SEGate

end
-- ==== Proof.KernelBlock.lean ====
/-
  What the kernel body leaves in the output block at one grid point, as one function of the three input blocks.

  The first loop carries a column of channel totals: started at zero, trip `k` adds the lane sums of the chunk of
  positions `512k … 512k + 511`, so after the eighth trip entry `p` is the sum of row `p` over all 4096 positions.
  The second loop stores, trip by trip, the same chunks scaled row by row by the gates computed from those totals. Every
  stored chunk is therefore the restriction of ONE function of the block index — entry `(0, p, n)` of the input block
  times the gate of channel `p` — and the eight chunks tile the block: the block ends holding that function.
-/
import proofs.«116508_j62173946577551_2_alg».proof.Proof.Gen.KernelIdeal.Frame
import proofs.«116508_j62173946577551_2_alg».proof.Proof.KernelPay
import proofs.«116508_j62173946577551_2_alg».proof.Proof.Spec
import Idealize.ShloMosaic.Lib.Pipeline.Value

set_option maxRecDepth 16384

noncomputable section

namespace Cert.KernelIdeal.Block

open Idealize.ShloMosaic Idealize.ShloMosaic.TcCoe Idealize.ShloMosaic.ValueIdx
open Idealize.SL.Sem
open Cert.KernelIdeal Cert.KernelIdeal.Gen Cert.KernelIdeal.Pay Cert.SEGate

/-- Entry `(0, p, n)` of a `[1, 512, 4096]` block, as a function of the position `n` (zero past the block). -/
def at3 (x0 : Vec Ideal S1x512x4096 .f32) (p : Fin 512) (n : ℕ) : EReal :=
  if h : n < 4096 then x0 (ix3 (0 : Fin 1) p ⟨n, h⟩) else 0

theorem trips1 : k0_t1_loop.trips = 8 := by decide
theorem trips2 : k0_t2_loop.trips = 8 := by decide

/-- Where element `(u, p, q)` of a chunk sits in the block: row `p`, position (chunk offset) + `q`. -/
theorem emb_chunk (off : Fin 3 → ℕ) (inb : ∀ a, off a + S1x512x512.size a ≤ S1x512x4096.size a)
    (h0 : off 0 = 0) (h1 : off 1 = 0) (u : Fin 1) (p q : Fin 512) (hb : off 2 + q.val < 4096) :
    (Rect.unit (s := S1x512x4096) off S1x512x512.size inb).emb (ix3 u p q) = ix3 (0 : Fin 1) p ⟨off 2 + q.val, hb⟩ := by
  funext a
  apply Fin.ext
  have hu : u.val = 0 := by omega
  match a with
  | ⟨0, _⟩ => show off 0 + 1 * u.val = 0; omega
  | ⟨1, _⟩ => show off 1 + 1 * p.val = p.val; omega
  | ⟨2, _⟩ => show off 2 + 1 * q.val = off 2 + q.val; omega

theorem chunk_bound (off : Fin 3 → ℕ) (inb : ∀ a, off a + S1x512x512.size a ≤ S1x512x4096.size a) (q : Fin 512) :
    off 2 + q.val < 4096 := by
  have h : off 2 + 512 ≤ 4096 := inb 2
  omega

/-- A loaded chunk read at `(u, p, q)`. -/
theorem ld_chunk (x0 : Vec Ideal S1x512x4096 .f32) (off : Fin 3 → ℕ) (inb : ∀ a, off a + S1x512x512.size a ≤ S1x512x4096.size a)
    (h0 : off 0 = 0) (h1 : off 1 = 0) (u : Fin 1) (p q : Fin 512) :
    View.ld x0 (Rect.unit (s := S1x512x4096) off S1x512x512.size inb) (ix3 u p q) = at3 x0 p (off 2 + q.val) := by
  have hb := chunk_bound off inb q
  unfold at3
  rw [dif_pos hb]
  show x0 ((Rect.unit (s := S1x512x4096) off S1x512x512.size inb).emb (ix3 u p q)) = _
  rw [emb_chunk off inb h0 h1 u p q hb]

section Body

variable (c : Dev nD) (i : grid0.Coords) (arg1 : Memref sig .tc .vmem S1x512x4096 .f32) (harg1 : arg1.IsWhole)
  (arg2 : Memref sig .tc .vmem S32x512 .f32) (harg2 : arg2.IsWhole) (arg3 : Memref sig .tc .vmem S512x32 .f32) (harg3 : arg3.IsWhole)
  (arg4 : Memref sig .tc .vmem S1x512x4096 .f32) (harg4 : arg4.IsWhole)

/-! ## The first loop: the running column of totals -/

/-- One trip of the first loop yields the carried column plus the lane sums of the trip's chunk. -/
theorem trip1_eq (X : BufTy.Contents (Elt Ideal) arg1.view.ty) (k : Fin k0_t1_loop.trips) (acc : FVec Ideal S512x1 .f32) :
    tripR_k0_t1 (F := Ideal) Variants.none c none i arg1 harg1 arg2 harg2 arg3 harg3 arg4 harg4 X k acc
      = k0_pay2 acc (View.readAt (Elt Ideal) arg1.view (Rect.unit (s := S1x512x4096) (k0_off1 k) S1x512x512.size (k0_off1_inb k)).toLoadRect X) := by
  unfold tripR_k0_t1 trip_k0_t1
  rfl

/-- The carried column before trip `n`. -/
abbrev colAt (x0 : Vec Ideal S1x512x4096 .f32) (n : ℕ) : FVec Ideal S512x1 .f32 :=
  st_k0_t1 (F := Ideal) Variants.none c none i arg1 harg1 arg2 harg2 arg3 harg3 arg4 harg4 (harg1.unread x0) k0_pay1 n

theorem colAt_zero (x0 : Vec Ideal S1x512x4096 .f32) (p : Fin 512) (u : Fin 1) :
    colAt c i arg1 harg1 arg2 harg2 arg3 harg3 arg4 harg4 x0 0 (ix2 p u) = 0 :=
  Ideal.ofBits_zero_f32

theorem colAt_succ (x0 : Vec Ideal S1x512x4096 .f32) (n : ℕ) (hn : n < 8) (p : Fin 512) (u : Fin 1) :
    colAt c i arg1 harg1 arg2 harg2 arg3 harg3 arg4 harg4 x0 (n + 1) (ix2 p u)
      = colAt c i arg1 harg1 arg2 harg2 arg3 harg3 arg4 harg4 x0 n (ix2 p u) + ∑ l : Fin 512, at3 x0 p (512 * n + l.val) := by
  have hk : n < k0_t1_loop.trips := by rw [trips1]; exact hn
  have e := st_k0_t1_succ (F := Ideal) Variants.none c none i arg1 harg1 arg2 harg2 arg3 harg3 arg4 harg4 (harg1.unread x0) k0_pay1 ⟨n, hk⟩
  unfold colAt
  rw [show n + 1 = (⟨n, hk⟩ : Fin k0_t1_loop.trips).val + 1 from rfl, e, trip1_eq, pay2_apply]
  refine congrArg (_ + ·) (Finset.sum_congr rfl fun l _ => ?_)
  rw [View.readAt_eq_ld, harg1.read_unread]
  refine (ld_chunk x0 _ _ (congrFun (k0_off1_eq ⟨n, hk⟩) 0) (congrFun (k0_off1_eq ⟨n, hk⟩) 1) (0 : Fin 1) p l).trans ?_
  rw [congrFun (k0_off1_eq ⟨n, hk⟩) 2]
  rfl

/-- After the eighth trip, entry `p` of the column is the sum of row `p` of the block over its eight chunks. -/
theorem col_total (x0 : Vec Ideal S1x512x4096 .f32) (p : Fin 512) (u : Fin 1) :
    colAt c i arg1 harg1 arg2 harg2 arg3 harg3 arg4 harg4 x0 8 (ix2 p u) = ∑ k : Fin 8, ∑ l : Fin 512, at3 x0 p (512 * k.val + l.val) :=
  running_total (fun k => ∑ l : Fin 512, at3 x0 p (512 * k + l.val))
    (fun n => colAt c i arg1 harg1 arg2 harg2 arg3 harg3 arg4 harg4 x0 n (ix2 p u)) 8
    (colAt_zero c i arg1 harg1 arg2 harg2 arg3 harg3 arg4 harg4 x0 p u)
    (fun k hk => colAt_succ c i arg1 harg1 arg2 harg2 arg3 harg3 arg4 harg4 x0 k hk p u)

/-! ## The second loop: every stored chunk restricts one function of the block index -/

/-- One trip of the second loop stores one chunk: the loaded chunk scaled by the gates. -/
theorem trip2_eq (tot : FVec Ideal S512x1 .f32) (w1 : Vec Ideal S32x512 .f32) (w2 : Vec Ideal S512x32 .f32)
    (X : BufTy.Contents (Elt Ideal) arg1.view.ty) (k : Fin k0_t2_loop.trips) :
    tripL_k0_t2 (F := Ideal) Variants.none c none i arg1 harg1 arg2 harg2 arg3 harg3 arg4 harg4 tot w1 w2 X k
      = [⟨Rect.unit (s := S1x512x4096) (k0_off2 k) S1x512x512.size (k0_off2_inb k),
          k0_pay3 tot w1 w2 (View.readAt (Elt Ideal) arg1.view (Rect.unit (s := S1x512x4096) (k0_off2 k) S1x512x512.size (k0_off2_inb k)).toLoadRect X)⟩] := by
  unfold tripL_k0_t2 trip_k0_t2
  rfl

/-- The function the stored chunks restrict: entry `(·, p, n)` of the input block times the gate of channel `p`. -/
def scaledBlock (tot : FVec Ideal S512x1 .f32) (x0 : Vec Ideal S1x512x4096 .f32) (w1 : Vec Ideal S32x512 .f32) (w2 : Vec Ideal S512x32 .f32) :
    S1x512x4096.Idx → EReal :=
  fun y => x0 y * kgate tot w1 w2 (y 1)

/-- A stored chunk at any offset along the positions is the restriction of `scaledBlock`. -/
theorem chunk_restricts (tot : FVec Ideal S512x1 .f32) (x0 : Vec Ideal S1x512x4096 .f32) (w1 : Vec Ideal S32x512 .f32) (w2 : Vec Ideal S512x32 .f32)
    (off : Fin 3 → ℕ) (inb : ∀ a, off a + S1x512x512.size a ≤ S1x512x4096.size a) (h0 : off 0 = 0) (h1 : off 1 = 0)
    (x : S1x512x512.Idx) :
    k0_pay3 (F := Ideal) tot w1 w2 (View.ld x0 (Rect.unit (s := S1x512x4096) off S1x512x512.size inb)) x
      = scaledBlock tot x0 w1 w2 ((Rect.unit (s := S1x512x4096) off S1x512x512.size inb).emb x) := by
  obtain ⟨u, p, q, rfl⟩ : ∃ (u : Fin 1) (p q : Fin 512), x = ix3 u p q := ⟨x 0, x 1, x 2, eq_ix3 x⟩
  have hb := chunk_bound off inb q
  rw [pay3_apply, ld_chunk x0 off inb h0 h1, emb_chunk off inb h0 h1 u p q hb]
  unfold scaledBlock at3
  rw [dif_pos hb]

/-- The pieces of the trips before `n` all restrict `scaledBlock`. -/
theorem pieces_restrict (tot : FVec Ideal S512x1 .f32) (x0 : Vec Ideal S1x512x4096 .f32) (w1 : Vec Ideal S32x512 .f32) (w2 : Vec Ideal S512x32 .f32) :
    ∀ n, n ≤ 8 → ∀ pc ∈ pb_k0_t2 (F := Ideal) Variants.none c none i arg1 harg1 arg2 harg2 arg3 harg3 arg4 harg4 tot w1 w2 (harg1.unread x0) n,
      ∀ x : pc.1.shape.Idx, pc.2 x = scaledBlock tot x0 w1 w2 (pc.1.emb x)
  | 0, _, pc, hpc, _ => absurd hpc List.not_mem_nil
  | n + 1, hn, pc, hpc, x => by
    have hk : n < k0_t2_loop.trips := by rw [trips2]; omega
    have e := pb_k0_t2_succ (F := Ideal) Variants.none c none i arg1 harg1 arg2 harg2 arg3 harg3 arg4 harg4 tot w1 w2 (harg1.unread x0) ⟨n, hk⟩
    rw [show n + 1 = (⟨n, hk⟩ : Fin k0_t2_loop.trips).val + 1 from rfl, e, trip2_eq] at hpc
    rcases List.mem_append.mp hpc with h | h
    · obtain rfl := List.mem_singleton.mp h
      dsimp only
      rw [View.readAt_eq_ld, harg1.read_unread]
      exact chunk_restricts tot x0 w1 w2 _ _ (congrFun (k0_off2_eq ⟨n, hk⟩) 0) (congrFun (k0_off2_eq ⟨n, hk⟩) 1) x
    · exact pieces_restrict tot x0 w1 w2 n (by omega) pc h x

/-! ## The block the body leaves -/

theorem hz2 : (![0, 0] : Fin 2 → Nat) = fun _ => 0 := funext fun a => by fin_cases a <;> rfl

/-- The pieces the whole-body run found: the second loop's, over the first loop's final column and the two weight blocks. -/
theorem run_pieces (x0 : Vec Ideal S1x512x4096 .f32) (x1 : Vec Ideal S32x512 .f32) (x2 : Vec Ideal S512x32 .f32) :
    (kernelRun0_A (F := Ideal) c i arg1 harg1 arg2 harg2 arg3 harg3 arg4 harg4 x0 x1 x2).1
      = pb_k0_t2 (F := Ideal) Variants.none c none i arg1 harg1 arg2 harg2 arg3 harg3 arg4 harg4
          (colAt c i arg1 harg1 arg2 harg2 arg3 harg3 arg4 harg4 x0 8) x1 x2 (harg1.unread x0) 8 := by
  unfold kernelRun0_A
  dsimp only
  rw [View.readAt_eq_ld, View.readAt_eq_ld, harg2.read_unread, harg3.read_unread,
    View.ld_unit_zero (S := S32x512) hz2, View.ld_unit_zero (S := S512x32) hz2]
  rfl

/-- The column of channel totals of a block: row `p` summed over its eight chunks of 512 positions. -/
def totals (x0 : Vec Ideal S1x512x4096 .f32) : FVec Ideal S512x1 .f32 :=
  fun j => ∑ k : Fin 8, ∑ l : Fin 512, at3 x0 (j 0) (512 * k.val + l.val)

theorem colAt_eight (x0 : Vec Ideal S1x512x4096 .f32) :
    colAt c i arg1 harg1 arg2 harg2 arg3 harg3 arg4 harg4 x0 8 = totals x0 := by
  funext j
  obtain ⟨p, u, rfl⟩ : ∃ (p : Fin 512) (u : Fin 1), j = ix2 p u := ⟨j 0, j 1, eq_ix2 j⟩
  exact col_total c i arg1 harg1 arg2 harg2 arg3 harg3 arg4 harg4 x0 p u

/-- THE BLOCK: after the body, the output block is the input block scaled, row by row, by the gates of its totals. -/
theorem out_eq (x0 : Vec Ideal S1x512x4096 .f32) (x1 : Vec Ideal S32x512 .f32) (x2 : Vec Ideal S512x32 .f32) :
    out0_A_3 (F := Ideal) c i arg1 harg1 arg2 harg2 arg3 harg3 arg4 harg4 x0 x1 x2 = scaledBlock (totals x0) x0 x1 x2 := by
  funext y
  unfold out0_A_3
  have hc := cover0_A_3 (F := Ideal) c i arg1 harg1 arg2 harg2 arg3 harg3 arg4 harg4 x0 x1 x2 y
  rw [run_pieces] at hc ⊢
  rw [← colAt_eight c i arg1 harg1 arg2 harg2 arg3 harg3 arg4 harg4 x0]
  exact View.read_writes_apply_of_pieces _ _ _ _ (pieces_restrict c i arg1 harg1 arg2 harg2 arg3 harg3 arg4 harg4 _ x0 x1 x2 8 le_rfl) y hc

end Body

end Cert.KernelIdeal.Block

end
-- ==== Proof.KernelArray.lean ====
/-
  From the blocks to the arrays: what the idealized kernel's program leaves in its result.

  The program flattens the two trailing axes of `x` (position `n = 64·h + w`), runs the kernel once per image — grid
  point `t` reads image `t` whole and writes image `t` of the output whole, so the 32 written blocks tile the output
  array — and unflattens the result. Image `b` of the output array is image `b` of the flattened input scaled, channel
  by channel, by the gates of that image's channel totals.
-/
import proofs.«116508_j62173946577551_2_alg».proof.Proof.Gen.KernelIdeal.Frame
import proofs.«116508_j62173946577551_2_alg».proof.Proof.KernelBlock
import Idealize.ShloMosaic.Lib.Pipeline.Value
import Idealize.ShloMosaic.Lib.StableHlo.Run

set_option maxRecDepth 16384

noncomputable section

namespace Cert.KernelIdeal.Arr

open Idealize.ShloMosaic Idealize.ShloMosaic.TcCoe Idealize.ShloMosaic.ValueIdx
open Idealize.SL.Sem
open Idealize.ShloMosaic.Pipeline (Dat)
open Cert.KernelIdeal Cert.KernelIdeal.Gen Cert.KernelIdeal.Pay Cert.KernelIdeal.Block

variable (m : (ℓ : Loc nD τ sig) → Buf (Elt Ideal) ℓ) (ρ : Dev nD → PrngReg)

/-- Image `b` of a `[32, 512, 4096]` array, as a `[1, 512, 4096]` block. -/
def image (xr : S32x512x4096.Idx → EReal) (b : Fin 32) : Vec Ideal S1x512x4096 .f32 :=
  fun y => xr (ix3 b (y 1) (y 2))

/-- The output array: every image scaled by the gates of its own channel totals. -/
def scaledArr (xr : S32x512x4096.Idx → EReal) (w1 : Vec Ideal S32x512 .f32) (w2 : Vec Ideal S512x32 .f32) :
    S32x512x4096.Idx → EReal :=
  fun j => xr j * kgate (totals (image xr (j 0))) w1 w2 (j 1)

/-- The printed index maps over the grid: the two big windows sit at image `t`, the two weight windows at the origin. -/
theorem idx_facts : ∀ t : Fin cfg0.N,
    win0_0.index t (0 : Fin 3) = t.val ∧ win0_0.index t (1 : Fin 3) = 0 ∧ win0_0.index t (2 : Fin 3) = 0
    ∧ win0_3.index t (0 : Fin 3) = t.val ∧ win0_3.index t (1 : Fin 3) = 0 ∧ win0_3.index t (2 : Fin 3) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- The grid point as an image number. -/
abbrev img (t : Fin cfg0.N) : Fin 32 := ⟨t.val, lt_of_lt_of_eq t.isLt N_0⟩

/-- The flattened input as the region finds it. -/
theorem V_flat (c : Dev nD) :
    (V m c main_v0 : S32x512x4096.Idx → EReal)
      = shapeCast S32x512x4096 (m ((c : Thread nD τ).loc main_arg0)) shapeCasts_S32x512x64x64_S32x512x4096 := by
  show StableHlo.after hostOps0 (fun b => m (c, b)) (Proc.devRef .tc main_v0) = _
  after_results
  rfl

/-- Window 0's block at point `t` is image `t` of the flattened input. -/
theorem iblk0 (c : Dev nD) (t : Fin cfg0.N) : iblk m c 0 t = image (V m c main_v0) (img t) := by
  obtain ⟨e0, e1, e2, -⟩ := idx_facts t
  funext y
  show V m c main_v0 (((cfg0.win 0).blk t).view.emb y) = V m c main_v0 (ix3 (img t) (y 1) (y 2))
  refine congrArg (V m c main_v0) (funext fun a => Fin.ext ?_)
  match a with
  | ⟨0, _⟩ => show win0_0.index t (0 : Fin 3) * 1 + 1 * (y 0).val = t.val; have hy : (y 0).val < 1 := (y 0).isLt; omega
  | ⟨1, _⟩ => show win0_0.index t (1 : Fin 3) * 512 + 1 * (y 1).val = (y 1).val; omega
  | ⟨2, _⟩ => show win0_0.index t (2 : Fin 3) * 4096 + 1 * (y 2).val = (y 2).val; omega

/-- Window 1's block is the whole first weight matrix. -/
theorem iblk1 (c : Dev nD) (t : Fin cfg0.N) : iblk m c 1 t = m ((c : Thread nD τ).loc main_arg1) := by
  obtain ⟨-, -, -, -, -, -, e0, e1, -⟩ := idx_facts t
  funext y
  show V m c main_arg1 (((cfg0.win 1).blk t).view.emb y) = m ((c : Thread nD τ).loc main_arg1) y
  rw [V_main_arg1]
  refine congrArg (m ((c : Thread nD τ).loc main_arg1)) (funext fun a => Fin.ext ?_)
  match a with
  | ⟨0, _⟩ => show win0_1.index t (0 : Fin 2) * 32 + 1 * (y 0).val = (y 0).val; omega
  | ⟨1, _⟩ => show win0_1.index t (1 : Fin 2) * 512 + 1 * (y 1).val = (y 1).val; omega

/-- Window 2's block is the whole second weight matrix. -/
theorem iblk2 (c : Dev nD) (t : Fin cfg0.N) : iblk m c 2 t = m ((c : Thread nD τ).loc main_arg2) := by
  obtain ⟨-, -, -, -, -, -, -, -, e0, e1⟩ := idx_facts t
  funext y
  show V m c main_arg2 (((cfg0.win 2).blk t).view.emb y) = m ((c : Thread nD τ).loc main_arg2) y
  rw [V_main_arg2]
  refine congrArg (m ((c : Thread nD τ).loc main_arg2)) (funext fun a => Fin.ext ?_)
  match a with
  | ⟨0, _⟩ => show win0_2.index t (0 : Fin 2) * 512 + 1 * (y 0).val = (y 0).val; omega
  | ⟨1, _⟩ => show win0_2.index t (1 : Fin 2) * 32 + 1 * (y 1).val = (y 1).val; omega

/-- WHAT POINT `t` WRITES BACK is block `t` of the scaled array. -/
theorem flushed_eq (c : Dev nD) (t : Fin cfg0.N) :
    (dats m 0 c).flushed 3 t
      = ((cfg0.win 3).blk t).view.read (Elt Ideal)
          (scaledArr (V m c main_v0) (m ((c : Thread nD τ).loc main_arg1)) (m ((c : Thread nD τ).loc main_arg2))) := by
  show (cfg0.win 3).cut (grid0.coords t) ((dats m 0 c).after 3 t) = _
  rw [after0_3]
  unfold outsAt0
  rw [out_eq, iblk0, iblk1, iblk2]
  obtain ⟨-, -, -, e0, e1, e2, -⟩ := idx_facts t
  funext y
  have he : ((cfg0.win 3).blk t).view.emb y = ix3 (img t) (y 1) (y 2) := by
    funext a; apply Fin.ext
    match a with
    | ⟨0, _⟩ => show win0_3.index t (0 : Fin 3) * 1 + 1 * (y 0).val = t.val; have hy : (y 0).val < 1 := (y 0).isLt; omega
    | ⟨1, _⟩ => show win0_3.index t (1 : Fin 3) * 512 + 1 * (y 1).val = (y 1).val; omega
    | ⟨2, _⟩ => show win0_3.index t (2 : Fin 3) * 4096 + 1 * (y 2).val = (y 2).val; omega
  show scaledBlock _ _ _ _ y = scaledArr _ _ _ (((cfg0.win 3).blk t).view.emb y)
  rw [he]
  rfl

/-- An index of the output array is in point `t`'s block iff each coordinate is in the block's range on its axis. -/
theorem mem_blk (t : Fin cfg0.N) (i : S32x512x4096.Idx) :
    i ∈ ((cfg0.win 3).blk t).view.set ↔ ∀ a : Fin 3, win0_3.index t a * S1x512x4096.size a ≤ (i a).val ∧ (i a).val < win0_3.index t a * S1x512x4096.size a + S1x512x4096.size a := by
  show i ∈ ((View.whole main_v1).slice (win0_3.rect t)).set ↔ _
  rw [View.set_slice_whole, Rect.mem_set_unit]
  exact Iff.rfl

/-- The 32 written blocks cover the output array: index `(b, p, n)` is in image `b`'s block. -/
theorem cover (i : S32x512x4096.Idx) : ∃ t : Fin cfg0.N, (cfg0.win 3).flush t = true ∧ i ∈ ((cfg0.win 3).blk t).view.set := by
  have hi0 : (i 0).val < 32 := (i 0).isLt
  have hi1 : (i 1).val < 512 := (i 1).isLt
  have hi2 : (i 2).val < 4096 := (i 2).isLt
  let t : Fin cfg0.N := ⟨(i 0).val, lt_of_lt_of_eq hi0 N_0.symm⟩
  obtain ⟨-, -, -, e0, e1, e2, -⟩ := idx_facts t
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; rw [e0]; show (i 0).val * 1 ≤ (i 0).val ∧ (i 0).val < (i 0).val * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 4096 ≤ (i 2).val ∧ (i 2).val < win0_3.index t (2 : Fin 3) * 4096 + 4096; omega

/-- THE OUTPUT ARRAY after the region. -/
theorem final (c : Dev nD) :
    (dats m 0 c).arrAt 3 cfg0.N
      = scaledArr (V m c main_v0) (m ((c : Thread nD τ).loc main_arg1)) (m ((c : Thread nD τ).loc main_arg2)) :=
  (dats m 0 c).arrAt_eq_of_cover 3 _ (fun t _ => flushed_eq m c t) cover

/-- The program's result as a function of its three arguments: flatten, scale every image, unflatten. -/
def resultOf (x : S32x512x64x64.Idx → EReal) (w1 : Vec Ideal S32x512 .f32) (w2 : Vec Ideal S512x32 .f32) :
    S32x512x64x64.Idx → EReal :=
  shapeCast S32x512x64x64
    (scaledArr (shapeCast S32x512x4096 x shapeCasts_S32x512x64x64_S32x512x4096) w1 w2)
    shapeCasts_S32x512x4096_S32x512x64x64

/-- The same at the launch contents of the argument arrays. -/
abbrev result (c : Dev nD) : Buf (Elt Ideal) ((c : Thread nD τ).loc main_v2) :=
  resultOf (m ((c : Thread nD τ).loc main_arg0)) (m ((c : Thread nD τ).loc main_arg1)) (m ((c : Thread nD τ).loc main_arg2))

/-- The host line after the region reads the output array and unflattens it. -/
theorem tail_eq (c : Dev nD) :
    Pipeline.afterTail₀ cfgs (dats m) 0 (V0 m) [hostOps1] c main_v2 = result m c := by
  unfold Pipeline.afterTail₀
  show StableHlo.after hostOps1 _ (Proc.devRef .tc main_v2) = _
  after_results
  rw [show Pipeline.withArrays (cfgs 0).spec c (V0 m c) (fun w => (dats m 0 c).arrAt w (cfgs 0).N) (Proc.tc.devRef main_v1) = _ from
    (Pipeline.withArrays_arr spec0 winFacts0.arr_inj c (V0 m c) (fun w => (dats m 0 c).arrAt w cfg0.N) 3).trans (final m c)]
  rw [V_flat]
  rfl

/-- THE RUN, READ: every weakly fair execution of the program ends with its result at `result` and its three arguments
    unchanged. -/
theorem run : θ_run defs (onTc (τ := τ) (main (F := Ideal))) ⟨m, fun _ => 0, ρ⟩ fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v2 (Pipeline.mem_restRefs_of main_v2 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.Arr

end
-- ==== Proof.KernelSpec.lean ====
/-
  The kernel's result is the scaled array.

  Flattening the two trailing axes puts entry `(h, w)` of a channel at position `64·h + w`. The kernel sums a channel
  over its eight chunks of 512 positions; the same 4096 positions are the channel's 64 rows of 64, so that sum is the
  channel total. Its mean is the total times `2^-12`, which is `1 / 4096` exactly. The two products of the gate have
  their factors in the other order, and multiplication of extended reals is commutative; the zero the hidden layer is
  cut at is the number 0. So the kernel's gate of a channel is the gate, and the unflattened output is every entry
  times the gate of its channel.
-/
import proofs.«116508_j62173946577551_2_alg».proof.Proof.KernelArray
import proofs.«116508_j62173946577551_2_alg».proof.Proof.Spec
import Idealize.ShloMosaic.Lib.Pipeline.Value

noncomputable section

namespace Cert.KernelIdeal.Bridge

open Idealize.ShloMosaic Idealize.ShloMosaic.ValueIdx
open Cert.KernelIdeal Cert.KernelIdeal.Gen Cert.KernelIdeal.Pay Cert.KernelIdeal.Block Cert.KernelIdeal.Arr Cert.SEGate

variable (x : S32x512x64x64.Idx → EReal) (w1 : Vec Ideal S32x512 .f32) (w2 : Vec Ideal S512x32 .f32)

/-- The input with its two trailing axes flattened. -/
abbrev flat : S32x512x4096.Idx → EReal := shapeCast S32x512x4096 x shapeCasts_S32x512x64x64_S32x512x4096

/-- Position `64·h + w` of the flattened channel is entry `(h, w)`. -/
theorem flat_apply (b : Fin 32) (p : Fin 512) (h w : Fin 64) (hn : 64 * h.val + w.val < 4096) :
    flat x (ix3 b p ⟨64 * h.val + w.val, hn⟩) = x (ix4 b p h w) :=
  shapeCast_apply x shapeCasts_S32x512x64x64_S32x512x4096 (ix3 b p ⟨64 * h.val + w.val, hn⟩) (ix4 b p h w) (by
    rw [Shape.rowMajor_val_three, Shape.rowMajor_val_four]
    show ((b.val * 512 + p.val) * 64 + h.val) * 64 + w.val = (b.val * 512 + p.val) * 4096 + (64 * h.val + w.val)
    omega)

/-- The eight chunk sums of a channel of image `b` add up to the channel's total. -/
theorem totals_image (b : Fin 32) (p : Fin 512) (u : Fin 1) :
    totals (image (flat x) b) (ix2 p u) = Cert.SEGate.pool x b p := by
  show ∑ k : Fin 8, ∑ l : Fin 512, at3 (image (flat x) b) p (512 * k.val + l.val) = _
  rw [chunks_eq_rows (fun n => at3 (image (flat x) b) p n)]
  unfold Cert.SEGate.pool
  refine Finset.sum_congr rfl fun h _ => Finset.sum_congr rfl fun w _ => ?_
  have hn : 64 * h.val + w.val < 4096 := by have := h.isLt; have := w.isLt; omega
  unfold at3
  rw [dif_pos hn]
  exact flat_apply x b p h w hn

/-- The gate the kernel computes for channel `p` of image `b` is the gate. -/
theorem kgate_eq (b : Fin 32) (p : Fin 512) :
    kgate (totals (image (flat x) b)) w1 w2 p = gate x w1 w2 b p := by
  unfold kgate gate
  refine congrArg Ideal.logistic (Finset.sum_congr rfl fun j _ => ?_)
  rw [mul_comm]
  refine congrArg (· * w2 (ix2 p j)) ?_
  unfold Cert.SEGate.hidden
  rw [Ideal.ofBits_zero_f32]
  refine congrArg (fun z => max z 0) (Finset.sum_congr rfl fun c _ => ?_)
  rw [totals_image, ofBits_invHW, mul_comm]
  rfl

/-- THE KERNEL'S RESULT: every entry times the gate of its channel. -/
theorem result_eq : resultOf x w1 w2 = scaled x w1 w2 := by
  funext i
  obtain ⟨b, p, h, w, rfl⟩ : ∃ (b : Fin 32) (p : Fin 512) (h w : Fin 64), i = ix4 b p h w := ⟨i 0, i 1, i 2, i 3, eq_ix4 i⟩
  have hn : 64 * h.val + w.val < 4096 := by have := h.isLt; have := w.isLt; omega
  unfold resultOf
  rw [shapeCast_apply _ shapeCasts_S32x512x4096_S32x512x64x64 (ix4 b p h w) (ix3 b p ⟨64 * h.val + w.val, hn⟩) (by
    rw [Shape.rowMajor_val_three, Shape.rowMajor_val_four]
    show (b.val * 512 + p.val) * 4096 + (64 * h.val + w.val) = ((b.val * 512 + p.val) * 64 + h.val) * 64 + w.val
    omega)]
  show flat x (ix3 b p ⟨64 * h.val + w.val, hn⟩) * kgate (totals (image (flat x) b)) w1 w2 p = x (ix4 b p h w) * gate x w1 w2 b p
  rw [flat_apply, kgate_eq]

end Cert.KernelIdeal.Bridge

end
-- ==== Proof.RefValue.lean ====
/-
  The reference computes the gate as stated: its result, index by index, is the entry times the gate of its channel.

  Stage by stage: the sum over the two trailing axes at `(b, c)` is the channel total (the indices that reduce to
  `(b, c)` are exactly `(b, c, h, w)`, one for each pair `(h, w)`); the division by 4096 is the product with the
  reciprocal; the two contractions are the sums over the channel and the feature index, the weight matrices read
  transposed; `1 / (1 + exp(-y))` is the logistic function on every extended real; the two broadcasts carry the gate of
  `(b, c)` to every position of the channel.
-/
import proofs.«116508_j62173946577551_2_alg».proof.Proof.Gen.ReferenceIdeal.Read
import proofs.«116508_j62173946577551_2_alg».proof.Proof.Spec
import Idealize.ShloMosaic.Lib.ValueIdx
import Idealize.ShloMosaic.PureOps.Ideal.Laws

noncomputable section

namespace Cert.ReferenceIdeal.RefValue

open Idealize.ShloMosaic Idealize.ShloMosaic.ValueIdx
open Cert.ReferenceIdeal Cert.ReferenceIdeal.Gen Cert.ReferenceIdeal.Read Cert.SEGate

/-- The reduction over the two trailing axes drops an index to its first two coordinates. -/
theorem drop_ix4 (b : Fin 32) (c : Fin 512) (h w : Fin 64) :
    reducesTo_S32x512x64x64_S32x512_d2_3.drop (ix4 b c h w) = ix2 b c :=
  funext fun a => Fin.ext (by match a with | ⟨0, _⟩ => rfl | ⟨1, _⟩ => rfl)

theorem drop_val0 (i : S32x512x64x64.Idx) : (reducesTo_S32x512x64x64_S32x512_d2_3.drop i 0).val = (i 0).val := rfl
theorem drop_val1 (i : S32x512x64x64.Idx) : (reducesTo_S32x512x64x64_S32x512_d2_3.drop i 1).val = (i 1).val := rfl

/-- The sum over the two trailing axes, at `(b, c)`, is the total of channel `c` of image `b`. -/
theorem pool_ref (x0 : (⟨S32x512x64x64, .f32⟩ : BufTy).Contents (Elt Ideal)) (b : Fin 32) (c : Fin 512) :
    val_main_v0 (F := Ideal) x0 (ix2 b c) = Cert.SEGate.pool x0 b c := by
  unfold val_main_v0 Host.reduceAdd
  rw [Ideal.hostReduceAdd_def]
  unfold Ideal.hostReduceAdd
  rw [val_main_cst_apply, Ideal.ofBits_def, Ideal.ofBits_zero_f32, zero_add]
  unfold Cert.SEGate.pool
  rw [← Fintype.sum_prod_type']
  symm
  refine Finset.sum_bij (fun p _ => ix4 b c p.1 p.2) (fun p _ => ?_) (fun p _ q _ e => ?_) (fun i hi => ?_) (fun p _ => rfl)
  · exact Finset.mem_filter.mpr ⟨Finset.mem_univ _, drop_ix4 b c p.1 p.2⟩
  · exact Prod.ext (congrFun e 2) (congrFun e 3)
  · have hd := (Finset.mem_filter.mp hi).2
    have h0 : (i 0).val = b.val := (drop_val0 i).symm.trans (congrArg Fin.val (congrFun hd 0))
    have h1 : (i 1).val = c.val := (drop_val1 i).symm.trans (congrArg Fin.val (congrFun hd 1))
    refine ⟨(i 2, i 3), Finset.mem_univ _, funext fun a => Fin.ext ?_⟩
    match a with
    | ⟨0, _⟩ => exact h0.symm
    | ⟨1, _⟩ => exact h1.symm
    | ⟨2, _⟩ => rfl
    | ⟨3, _⟩ => rfl

/-- The mean of a channel. -/
theorem mean_ref (x0 : (⟨S32x512x64x64, .f32⟩ : BufTy).Contents (Elt Ideal)) (b : Fin 32) (c : Fin 512) :
    val_main_v2 (F := Ideal) x0 (ix2 b c) = mean x0 b c := by
  rw [val_main_v2_apply, val_main_v1_apply, val_main_cst_0_apply, pool_ref]
  simp only [Ideal.hostDivf_def, Ideal.ofBits_def]
  exact div_4096 _

/-- The hidden layer. -/
theorem hidden_ref (x0 : (⟨S32x512x64x64, .f32⟩ : BufTy).Contents (Elt Ideal)) (x1 : (⟨S32x512, .f32⟩ : BufTy).Contents (Elt Ideal))
    (b j : Fin 32) : val_main_v5 (F := Ideal) x0 x1 (ix2 b j) = Cert.SEGate.hidden x0 x1 b j := by
  rw [val_main_v5_apply, val_main_call0_v0_apply, val_main_call0_cst_apply, val_main_v4_apply]
  simp only [Ideal.maximumf_def, Ideal.ofBits_def, Ideal.ofBits_zero_f32]
  unfold Cert.SEGate.hidden
  refine congrArg (fun z => max z 0) (Finset.sum_congr rfl fun k _ => ?_)
  have el : lidx_main_v4 (ix2 b j) k = ix2 b k :=
    funext fun a => Fin.ext (by match a with | ⟨0, _⟩ => rfl | ⟨1, _⟩ => rfl)
  have er : idx_main_v3 (ridx_main_v4 (ix2 b j) k) = ix2 j k :=
    funext fun a => Fin.ext (by match a with | ⟨0, _⟩ => rfl | ⟨1, _⟩ => rfl)
  rw [el, val_main_v3_apply, er, mean_ref]

/-- The gate. -/
theorem gate_ref (x0 : (⟨S32x512x64x64, .f32⟩ : BufTy).Contents (Elt Ideal)) (x1 : (⟨S32x512, .f32⟩ : BufTy).Contents (Elt Ideal))
    (x2 : (⟨S512x32, .f32⟩ : BufTy).Contents (Elt Ideal)) (b : Fin 32) (c : Fin 512) :
    val_main_v13 (F := Ideal) x0 x1 x2 (ix2 b c) = gate x0 x1 x2 b c := by
  rw [val_main_v13_apply, val_main_v12_apply, val_main_cst_2_apply, val_main_v11_apply, val_main_v10_apply, val_main_cst_1_apply,
    val_main_v9_apply, val_main_v8_apply, val_main_v7_apply]
  simp only [Ideal.hostDivf_def, Ideal.ofBits_def, Ideal.addf_def, Ideal.hostUnary_exp_def, Ideal.hostNegf_def, Ideal.negf_def, ofBits_one]
  unfold gate Ideal.logistic
  refine congrArg (fun z => Ideal.div 1 (1 + Ideal.exp (-z))) (Finset.sum_congr rfl fun j _ => ?_)
  have el : lidx_main_v7 (ix2 b c) j = ix2 b j :=
    funext fun a => Fin.ext (by match a with | ⟨0, _⟩ => rfl | ⟨1, _⟩ => rfl)
  have er : idx_main_v6 (ridx_main_v7 (ix2 b c) j) = ix2 c j :=
    funext fun a => Fin.ext (by match a with | ⟨0, _⟩ => rfl | ⟨1, _⟩ => rfl)
  rw [el, val_main_v6_apply, er, hidden_ref]

/-- THE REFERENCE: its result is the scaled array. -/
theorem ref_eq (x0 : (⟨S32x512x64x64, .f32⟩ : BufTy).Contents (Elt Ideal)) (x1 : (⟨S32x512, .f32⟩ : BufTy).Contents (Elt Ideal))
    (x2 : (⟨S512x32, .f32⟩ : BufTy).Contents (Elt Ideal)) :
    val_main_v16 (F := Ideal) x0 x1 x2 = scaled x0 x1 x2 := by
  funext i
  obtain ⟨b, c, h, w, rfl⟩ : ∃ (b : Fin 32) (c : Fin 512) (h w : Fin 64), i = ix4 b c h w := ⟨i 0, i 1, i 2, i 3, eq_ix4 i⟩
  have e1 : idx_main_v14 (idx_main_v15 (ix4 b c h w)) = ix2 b c :=
    funext fun a => Fin.ext (by match a with | ⟨0, _⟩ => rfl | ⟨1, _⟩ => rfl)
  rw [val_main_v16_apply, val_main_v15_apply, val_main_v14_apply, e1, gate_ref]
  rfl

end Cert.ReferenceIdeal.RefValue

end
-- ==== Proof.lean ====
/-
  A squeeze-and-excite gate: each channel of each image of `x : [32, 512, 64, 64]` is scaled by a gate in (0, 1)
  computed from the image's channel means through two small weight matrices,

    out[b, c, h, w] = x[b, c, h, w] · σ( Σ_j  max( Σ_c' mean[b, c'] · w1[j, c'], 0 ) · w2[c, j] ),
    mean[b, c]      = ( Σ_h Σ_w x[b, c, h, w] ) / 4096.

  The kernel works on one image per grid point with the two trailing axes flattened: it sums each channel in eight
  chunks of 512 positions, multiplies the total by `2^-12`, computes the gate by two matrix products into zero
  accumulators (their operands rounded to bf16, which changes nothing on the extended reals), and stores the image
  chunk by chunk, scaled. The reference sums over the two trailing axes at once, divides by 4096, and spells the
  logistic function as `1 / (1 + exp(-y))`.

  On the extended reals both are the function above (`Cert.SEGate.scaled`): a sum does not depend on how its 4096
  terms are grouped; `2^-12` is `1 / 4096` exactly and dividing by 4096 is multiplying by it, at the infinities too;
  the products differ only in the order of their factors; and the two spellings of the logistic function are one
  definition. None of these laws needs the entries to be finite, so the precondition is never opened.

  The three frame claims are the generated frame runs (the reference's is its generated run with the result dropped);
  the idealization rewrote nothing, so `preserves` has nothing to state; `algebraic` is the two runs side by side, the
  kernel's result array read off its frame run block by block, the reference's off its run stage by stage.
-/
import proofs.«116508_j62173946577551_2_alg».proof.Defs
import proofs.«116508_j62173946577551_2_alg».proof.Proof.Gen.Kernel
import proofs.«116508_j62173946577551_2_alg».proof.Proof.Gen.Kernel.Skeleton
import proofs.«116508_j62173946577551_2_alg».proof.Proof.Gen.Kernel.Loops
import proofs.«116508_j62173946577551_2_alg».proof.Proof.Gen.Kernel.Launch
import proofs.«116508_j62173946577551_2_alg».proof.Proof.Gen.Kernel.Points
import proofs.«116508_j62173946577551_2_alg».proof.Proof.Gen.Kernel.Frame
import proofs.«116508_j62173946577551_2_alg».proof.Proof.Gen.KernelIdeal
import proofs.«116508_j62173946577551_2_alg».proof.Proof.Gen.KernelIdeal.Skeleton
import proofs.«116508_j62173946577551_2_alg».proof.Proof.Gen.KernelIdeal.Loops
import proofs.«116508_j62173946577551_2_alg».proof.Proof.Gen.KernelIdeal.Launch
import proofs.«116508_j62173946577551_2_alg».proof.Proof.Gen.KernelIdeal.Points
import proofs.«116508_j62173946577551_2_alg».proof.Proof.Gen.KernelIdeal.Frame
import proofs.«116508_j62173946577551_2_alg».proof.Proof.Gen.ReferenceIdeal
import proofs.«116508_j62173946577551_2_alg».proof.Proof.Gen.Pre_finite_inputs
import proofs.«116508_j62173946577551_2_alg».proof.Proof.Gen.ReferenceIdeal.Run
import proofs.«116508_j62173946577551_2_alg».proof.Proof.Gen.ReferenceIdeal.Read
import proofs.«116508_j62173946577551_2_alg».proof.Proof.KernelSpec
import proofs.«116508_j62173946577551_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with every entry of `x` times the gate of its channel. -/
theorem algebraic : Cert.algebraic_KernelIdeal_ReferenceIdeal := by
  intro m ρ m' ρ' _ hagree
  refine ⟨fun c => Cert.KernelIdeal.Arr.result m c, Cert.KernelIdeal.Arr.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.RefValue.ref_eq, (hagree c).1, (hagree c).2.1, (hagree c).2.2]
  exact (Cert.KernelIdeal.Bridge.result_eq _ _ _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
